-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608x1 : Shape := ⟨2, ![8388608, 1]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x4 .f32) (main_arg1 : FVec F S8388608x1 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  main_v8
-- ==== Kernel.lean ====
abbrev S8388608x4 : Shape := ⟨2, ![8388608, 4]⟩
abbrev S8388608x1 : Shape := ⟨2, ![8388608, 1]⟩
abbrev S1x1 : Shape := ⟨2, ![1, 1]⟩
abbrev S_ : Shape := ⟨0, ![]⟩
abbrev S16384x4 : Shape := ⟨2, ![16384, 4]⟩
abbrev S16384x1 : Shape := ⟨2, ![16384, 1]⟩
abbrev S1 : Shape := ⟨1, ![1]⟩

abbrev nBuf : Space → Nat
  | .hbm => 14
  | .vmem => 8
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S16384x4, .f32⟩
  | .local _ .vmem, ⟨1, _⟩ => ⟨S16384x4, .f32⟩
  | .local _ .vmem, ⟨2, _⟩ => ⟨S16384x1, .f32⟩
  | .local _ .vmem, ⟨3, _⟩ => ⟨S16384x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v82 : BitVec 1 := Scalar.cmpi .eq arg0 c511_i32
  let v83 : BitVec 32 := Scalar.extui v82
  let c0_i32_31 : BitVec 32 := 0#32
  let v84 : BitVec 1 := Scalar.cmpi .ne v83 c0_i32_31
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x4_S16384x4_0_0 : ∀ a, (![0, 0] : Fin 2 → Nat) a + S16384x4.size a ≤ S16384x4.size a
  h_S16384x4 : 0 < S16384x4.numel
  inb_S16384x1_S16384x1_0_0 : ∀ a, (![0, 0] : Fin 2 → Nat) a + S16384x1.size a ≤ S16384x1.size a
  h_S16384x1 : 0 < S16384x1.numel
  slices_S16384x4_o0_1_S16384x1 : S16384x4.Slices ![0, 1] S16384x1
  slices_S16384x4_o0_2_S16384x1 : S16384x4.Slices ![0, 2] S16384x1
  slices_S16384x4_o0_3_S16384x1 : S16384x4.Slices ![0, 3] S16384x1
  reduces_S16384x1_S1 : S16384x1.Reduces [0] S1
  shapeCasts_S1_S1x1 : S1.ShapeCasts S1x1
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S8388608x4.size a
  hwx0_0 : ∀ i : grid0.Coords, EltTy.bits .f32 = 32 ∨ (Rect.block (s := S8388608x4) S16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S8388608x1.size a
  hwx0_1 : ∀ i : grid0.Coords, EltTy.bits .f32 = 32 ∨ (Rect.block (s := S8388608x1) S16384x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608, .f32⟩
  | .hbm, ⟨9, _⟩ => ⟨S_, .f32⟩
  | .hbm, ⟨10, _⟩ => ⟨S8388608, .f32⟩
  | .hbm, ⟨11, _⟩ => ⟨S8388608, .i1⟩
  | .hbm, ⟨12, _⟩ => ⟨S_, .f32⟩
  | .hbm, ⟨13, _⟩ => ⟨S8388608, .f32⟩
  | .hbm, ⟨14, _⟩ => ⟨S8388608, .i1⟩
  | .hbm, ⟨15, _⟩ => ⟨S8388608, .i1⟩
  | .hbm, ⟨16, _⟩ => ⟨S_, .f32⟩
  | .hbm, ⟨17, _⟩ => ⟨S8388608, .f32⟩
  | .hbm, ⟨18, _⟩ => ⟨S8388608, .i1⟩
  | .hbm, ⟨19, _⟩ => ⟨S_, .f32⟩
  | .hbm, ⟨20, _⟩ => ⟨S8388608, .f32⟩
  | .hbm, ⟨21, _⟩ => ⟨S8388608, .i1⟩
  | .hbm, ⟨22, _⟩ => ⟨S8388608, .i1⟩
  | .hbm, ⟨23, _⟩ => ⟨S_, .f32⟩
  | .hbm, ⟨24, _⟩ => ⟨S8388608, .f32⟩
  | .hbm, ⟨25, _⟩ => ⟨S8388608, .i1⟩
  | .hbm, ⟨26, _⟩ => ⟨S8388608, .i1⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S_, .f32⟩
  | .hbm, ⟨31, _⟩ => ⟨S8388608, .f32⟩
  | .hbm, ⟨32, _⟩ => ⟨S8388608, .f32⟩
  | .hbm, ⟨33, _⟩ => ⟨S_, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S8388608, .f32⟩
  | .hbm, ⟨50, _⟩ => ⟨S_, .f32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S_, .f32⟩
  | .hbm, ⟨57, _⟩ => ⟨S_, .f32⟩
  | .hbm, ⟨58, _⟩ => ⟨S8388608, .f32⟩
  | .hbm, ⟨59, _⟩ => ⟨S8388608, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8388608, .f32⟩
  | .hbm, ⟨65, _⟩ => ⟨S8388608, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8388608, .f32⟩
  | .hbm, ⟨72, _⟩ => ⟨S8388608, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8388608, .i32⟩
  | .hbm, ⟨77, _⟩ => ⟨S_, .i32⟩
  | .hbm, ⟨78, _⟩ => ⟨S_, .i32⟩
  | .hbm, ⟨79, _⟩ => ⟨S8388608, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S8388608, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_call1_cst : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_call2_cst : Ref sig .tc := ⟨.hbm, 53, rfl⟩
abbrev main_call2_v0 : Ref sig .tc := ⟨.hbm, 54, rfl⟩
abbrev main_v39 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_cst_9 : Ref sig .tc := ⟨.hbm, 62, rfl⟩
abbrev main_call4_v0 : Ref sig .tc := ⟨.hbm, 63, rfl⟩
abbrev main_call4_v1 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_call5_v0 : Ref sig .tc := ⟨.hbm, 70, rfl⟩
abbrev main_call5_v1 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S8388608x4_S8388608x1_0_1 : S8388608x4.Slices ![0, 1] S8388608x1
  shapeCasts_S8388608x1_S8388608 : S8388608x1.ShapeCasts S8388608
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  reducesTo_S8388608_S_d0 : S8388608.ReducesTo [0] S_
  h_S_ : 0 < S_.numel
  natLt_1_32 : 1 < 32

variable [Facts₀]

class Facts : Prop extends Facts₀ where

variable [Facts]
-- ==== Proof.Spec.lean ====
/-
  The temporal-consistency loss as one function of the two argument arrays, on the extended reals.

  A row is four numbers: the three class scores p4, p5, p6 (columns 1, 2, 3 of the score array) and its
  relative time t.  Three masks say which pairs of scores exceed the threshold; three hinge terms
  penalise a violated order; the loss is the sum of the masked hinge terms over all rows divided by
  the number of set masks (when there is one), times the weight.

  Here: the row functions; the two totals (masked hinges, set masks) over ANY finite family of rows;
  the law that a total over 512 · 16384 rows is the sum over 512 blocks of the block totals (only
  commutativity and associativity of +, so it holds on the extended reals with no finiteness
  assumption); the closed form of a running sum started from the zero word; and the final quotient.
-/
import Idealize.ShloMosaic.PureOps.Ideal
import Idealize.ShloMosaic.PureOps.Ideal.Laws
import Idealize.ShloMosaic.Lib.ValueIdx

noncomputable section

namespace Cert.TemporalLoss

open Idealize.ShloMosaic

/-- The threshold 0.3, the margin (and weight) 0.1, zero and one, each as the value of its f32 word. -/
def thr : EReal := Ideal.ofBits .f32 0x3E99999A#32
def mar : EReal := Ideal.ofBits .f32 0x3DCCCCCD#32
def zer : EReal := Ideal.ofBits .f32 0x00000000#32
def one : EReal := Ideal.ofBits .f32 0x3F800000#32

theorem zer_eq : zer = 0 := Ideal.ofBits_zero_f32

/-- A score exceeds the threshold. -/
def above (a : EReal) : BitVec 1 := Ideal.cmp .ogt a thr
/-- Scores 4 and 5 both do; scores 5 and 6 both do; all three do. -/
def both45 (p4 p5 : EReal) : BitVec 1 := IntOp.andi (above p4) (above p5)
def both56 (p5 p6 : EReal) : BitVec 1 := IntOp.andi (above p5) (above p6)
def all456 (p4 p5 p6 : EReal) : BitVec 1 := IntOp.andi (both45 p4 p5) (above p6)

/-- margin − (p5·t − p4·t), cut at zero; the same for the pair (5, 6); and |p5 − p4| − |p6 − p5| + margin, cut at zero. -/
def hinge45 (p4 p5 t : EReal) : EReal := max (mar - (p5 * t - p4 * t)) zer
def hinge56 (p5 p6 t : EReal) : EReal := max (mar - (p6 * t - p5 * t)) zer
def hingeOrd (p4 p5 p6 : EReal) : EReal :=
  max (max (p5 - p4) (-(p5 - p4)) - max (p6 - p5) (-(p6 - p5)) + mar) zer

/-- A term kept where its mask is set, the zero word elsewhere. -/
def keep (b : BitVec 1) (x : EReal) : EReal := Scalar.select b x zer
/-- A mask bit as a number: widened to 32 bits, read as a signed integer, exactly. -/
def unit (b : BitVec 1) : EReal := (((b.setWidth 32).toInt : ℝ) : EReal)

def e45 (p4 p5 t : EReal) : EReal := keep (both45 p4 p5) (hinge45 p4 p5 t)
def e56 (p5 p6 t : EReal) : EReal := keep (both56 p5 p6) (hinge56 p5 p6 t)
def e456 (p4 p5 p6 : EReal) : EReal := keep (all456 p4 p5 p6) (hingeOrd p4 p5 p6)

section Totals
variable {ι : Type} [Fintype ι] (p4 p5 p6 t : ι → EReal)

/-- The sum of the masked hinge terms over a family of rows, grouped as the programs group it. -/
def tot : EReal :=
  (∑ i, e45 (p4 i) (p5 i) (t i) + ∑ i, e56 (p5 i) (p6 i) (t i)) + ∑ i, e456 (p4 i) (p5 i) (p6 i)

/-- The number of set masks over a family of rows, as a sum of zeros and ones. -/
def cnt : EReal :=
  (∑ i, unit (both45 (p4 i) (p5 i)) + ∑ i, unit (both56 (p5 i) (p6 i))) + ∑ i, unit (all456 (p4 i) (p5 i) (p6 i))

end Totals

/-- Row `r` of block `b`, of 512 blocks of 16384 rows. -/
def row (b : Fin 512) (r : Fin 16384) : Fin 8388608 :=
  ⟨16384 * b.val + r.val, by have := b.isLt; have := r.isLt; omega⟩

/-- The rows, as (block, row in block). -/
def rowEquiv : Fin 512 × Fin 16384 ≃ Fin 8388608 where
  toFun x := row x.1 x.2
  invFun i := (⟨i.val / 16384, by have := i.isLt; omega⟩, ⟨i.val % 16384, Nat.mod_lt _ (by norm_num)⟩)
  left_inv x := by
    obtain ⟨b, r⟩ := x
    have hb := b.isLt; have hr := r.isLt
    refine Prod.ext (Fin.ext ?_) (Fin.ext ?_)
    · show (16384 * b.val + r.val) / 16384 = b.val; omega
    · show (16384 * b.val + r.val) % 16384 = r.val; omega
  right_inv i := by
    apply Fin.ext
    show 16384 * (i.val / 16384) + i.val % 16384 = i.val
    omega

/-- A sum over all rows is the sum over the blocks of the sums over each block's rows. -/
theorem sum_rows {M : Type} [AddCommMonoid M] (f : Fin 8388608 → M) :
    ∑ i, f i = ∑ b : Fin 512, ∑ r : Fin 16384, f (row b r) := by
  rw [← Equiv.sum_comp rowEquiv f, Fintype.sum_prod_type]
  rfl

/-- The masked-hinge total over all rows is the sum of the block totals. -/
theorem tot_blocks (p4 p5 p6 t : Fin 8388608 → EReal) :
    tot p4 p5 p6 t = ∑ b : Fin 512, tot (fun r => p4 (row b r)) (fun r => p5 (row b r)) (fun r => p6 (row b r))
      (fun r => t (row b r)) := by
  unfold tot
  rw [sum_rows, sum_rows (fun i => e56 (p5 i) (p6 i) (t i)), sum_rows (fun i => e456 (p4 i) (p5 i) (p6 i)),
    ← Finset.sum_add_distrib, ← Finset.sum_add_distrib]

/-- The mask count over all rows is the sum of the block counts. -/
theorem cnt_blocks (p4 p5 p6 : Fin 8388608 → EReal) :
    cnt p4 p5 p6 = ∑ b : Fin 512, cnt (fun r => p4 (row b r)) (fun r => p5 (row b r)) (fun r => p6 (row b r)) := by
  unfold cnt
  rw [sum_rows, sum_rows (fun i => unit (both56 (p5 i) (p6 i))), sum_rows (fun i => unit (all456 (p4 i) (p5 i) (p6 i))),
    ← Finset.sum_add_distrib, ← Finset.sum_add_distrib]

/-- A running sum: the zero word plus the first term, then one more term at each step. -/
def acc (B : ℕ → EReal) : ℕ → EReal
  | 0 => zer + B 0
  | n + 1 => acc B n + B (n + 1)

theorem acc_eq_sum (B : ℕ → EReal) (n : ℕ) : acc B n = ∑ k ∈ Finset.range (n + 1), B k := by
  induction n with
  | zero => simp [acc, zer_eq]
  | succ n ih => rw [acc, ih, Finset.sum_range_succ _ (n + 1)]

/-- After the last of the 512 steps the running sum is the sum over the blocks. -/
theorem acc_last (B : ℕ → EReal) : acc B 511 = ∑ b : Fin 512, B b.val := by
  rw [acc_eq_sum, Finset.sum_range]

/-- The loss from the two totals: weight · (total / max(count, 1) if count > 0, else total). -/
def loss (T C : EReal) : EReal :=
  mar * Scalar.select (Ideal.cmp .ogt C zer) (Ideal.div T (max C one)) T

end Cert.TemporalLoss

end
-- ==== Proof.KernelPieces.lean ====
/-
  What one run of the kernel body leaves behind, read as values.

  The body keeps two 1×1 accumulators across the 512 grid points: the running total of the masked hinge
  terms and the running count of set masks. At the first point it stores the zero word into both and then
  adds the block's sums; at every later point it adds the block's sums to what the point before left; at
  the last point it also copies both accumulators into the two 1×1 outputs. Each of these buffers is
  written by one store covering it (at the first point: the zero store, then the covering store), so its
  final contents are that store's value, a function of the block of scores, the block of times and, after
  the first point, the accumulator's previous contents.
-/
import proofs.«100701_j78993038508697_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole block. -/
theorem hz : (![0, 0] : Fin 2 → Nat) = fun _ => 0 := funext fun a => by fin_cases a <;> rfl

/-! ## The first point: both accumulators are reset to the zero word, then this block's sums are added -/

theorem first_total (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 : Vec F S16384x4 .f32) (x1 : Vec F S16384x1 .f32) :
    sout0_A_0 c i a1 h1 a2 h2 a3 h3 a4 h4 a5 h5 a6 h6 hc0 hc1 x0 x1 = k0_pay12 (k0_pay6 x0) (k0_pay7 x0) (k0_pay8 x0) (k0_pay9 x0 x1) (k0_pay10 x0 x1) (k0_pay11 x0) k0_pay1 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h5.read_unread, h6.read_unread,
    View.ld_unit_zero (S := S16384x4) hz, View.ld_unit_zero (S := S16384x1) hz, View.ld_unit_zero (S := S1x1) hz]

theorem first_count (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 : Vec F S16384x4 .f32) (x1 : Vec F S16384x1 .f32) :
    sout0_A_1 c i a1 h1 a2 h2 a3 h3 a4 h4 a5 h5 a6 h6 hc0 hc1 x0 x1 = k0_pay13 (k0_pay6 x0) (k0_pay7 x0) (k0_pay8 x0) k0_pay2 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h5.read_unread, h6.read_unread,
    View.ld_unit_zero (S := S16384x4) hz, View.ld_unit_zero (S := S16384x1) hz, View.ld_unit_zero (S := S1x1) hz]

/-! ## A middle point: this block's sums are added to what the point before left -/

theorem middle_total (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 : Vec F S16384x4 .f32) (x1 : Vec F S16384x1 .f32) (xs0 xs1 : Vec F S1x1 .f32) :
    sout0_B_0 c i a1 h1 a2 h2 a3 h3 a4 h4 a5 h5 a6 h6 hc0 hc1 x0 x1 xs0 xs1 = k0_pay12 (k0_pay6 x0) (k0_pay7 x0) (k0_pay8 x0) (k0_pay9 x0 x1) (k0_pay10 x0 x1) (k0_pay11 x0) xs0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, h6.read_unread,
    View.ld_unit_zero (S := S16384x4) hz, View.ld_unit_zero (S := S16384x1) hz, View.ld_unit_zero (S := S1x1) hz]

theorem middle_count (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 : Vec F S16384x4 .f32) (x1 : Vec F S16384x1 .f32) (xs0 xs1 : Vec F S1x1 .f32) :
    sout0_B_1 c i a1 h1 a2 h2 a3 h3 a4 h4 a5 h5 a6 h6 hc0 hc1 x0 x1 xs0 xs1 = k0_pay13 (k0_pay6 x0) (k0_pay7 x0) (k0_pay8 x0) xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, h6.read_unread,
    View.ld_unit_zero (S := S16384x4) hz, View.ld_unit_zero (S := S16384x1) hz, View.ld_unit_zero (S := S1x1) hz]

/-! ## The last point: the same, and the two accumulators are copied into the two outputs -/

theorem last_total (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S16384x4 .f32) (x1 : Vec F S16384x1 .f32) (xs0 xs1 : Vec F S1x1 .f32) :
    sout0_C_0 c i a1 h1 a2 h2 a3 h3 a4 h4 a5 h5 a6 h6 hc0 hc1 x0 x1 xs0 xs1 = k0_pay12 (k0_pay6 x0) (k0_pay7 x0) (k0_pay8 x0) (k0_pay9 x0 x1) (k0_pay10 x0 x1) (k0_pay11 x0) xs0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, h6.read_unread,
    View.ld_unit_zero (S := S16384x4) hz, View.ld_unit_zero (S := S16384x1) hz, View.ld_unit_zero (S := S1x1) hz]

theorem last_count (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S16384x4 .f32) (x1 : Vec F S16384x1 .f32) (xs0 xs1 : Vec F S1x1 .f32) :
    sout0_C_1 c i a1 h1 a2 h2 a3 h3 a4 h4 a5 h5 a6 h6 hc0 hc1 x0 x1 xs0 xs1 = k0_pay13 (k0_pay6 x0) (k0_pay7 x0) (k0_pay8 x0) xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, h6.read_unread,
    View.ld_unit_zero (S := S16384x4) hz, View.ld_unit_zero (S := S16384x1) hz, View.ld_unit_zero (S := S1x1) hz]

theorem last_out_total (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S16384x4 .f32) (x1 : Vec F S16384x1 .f32) (xs0 xs1 : Vec F S1x1 .f32) :
    out0_C_2 c i a1 h1 a2 h2 a3 h3 a4 h4 a5 h5 a6 h6 hc0 hc1 x0 x1 xs0 xs1 = k0_pay12 (k0_pay6 x0) (k0_pay7 x0) (k0_pay8 x0) (k0_pay9 x0 x1) (k0_pay10 x0 x1) (k0_pay11 x0) xs0 := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, h6.read_unread,
    View.ld_unit_zero (S := S16384x4) hz, View.ld_unit_zero (S := S16384x1) hz, View.ld_unit_zero (S := S1x1) hz]

theorem last_out_count (c : Dev nD) (i : grid0.Coords) (a1 : Memref sig .tc .vmem S16384x4 .f32) (h1 : a1.IsWhole)
    (a2 : Memref sig .tc .vmem S16384x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S16384x4 .f32) (x1 : Vec F S16384x1 .f32) (xs0 xs1 : Vec F S1x1 .f32) :
    out0_C_3 c i a1 h1 a2 h2 a3 h3 a4 h4 a5 h5 a6 h6 hc0 hc1 x0 x1 xs0 xs1 = k0_pay13 (k0_pay6 x0) (k0_pay7 x0) (k0_pay8 x0) xs1 := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, h6.read_unread,
    View.ld_unit_zero (S := S16384x4) hz, View.ld_unit_zero (S := S16384x1) hz, View.ld_unit_zero (S := S1x1) hz]

end Cert.KernelIdeal.Pieces

end
-- ==== Proof.KernelPayload.lean ====
/-
  The arithmetic of one grid point, on the extended reals.

  A block is 16384 rows: the score block `x0` (16384 × 4) and the time block `x1` (16384 × 1).  The body
  slices columns 1, 2, 3 of the scores, forms the three masks and the three hinge terms row by row, sums
  each masked term over the rows (a sum along the block's long axis, kept as a 1 × 1 value), adds the
  three sums, and adds that to the accumulator; the count does the same with each mask bit read as 0 or 1.
  Read at the accumulator's one index, that is: previous contents + the block's total of masked hinges,
  and previous contents + the block's count of set masks, in the row functions of the specification.
-/
import proofs.«100701_j78993038508697_2_alg».proof.Proof.Gen.KernelIdeal.Skeleton
import proofs.«100701_j78993038508697_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.TemporalLoss

/-! ## The three score columns of a block -/

theorem col1 {F : FTy → Type} [FloatOps F] (x0 : Vec F S16384x4 .f32) (r : Fin 16384) :
    k0_pay3 x0 (ix2 r (0 : Fin 1)) = x0 (ix2 r (1 : Fin 4)) := by
  unfold k0_pay3
  exact extractStridedSlice_apply ![0, 1] x0 _ (ix2 r (0 : Fin 1)) (ix2 r (1 : Fin 4)) (fun a => match a with
    | ⟨0, _⟩ => by show r.val = 0 + r.val; omega
    | ⟨1, _⟩ => by show 1 = 1 + 0; rfl)

theorem col2 {F : FTy → Type} [FloatOps F] (x0 : Vec F S16384x4 .f32) (r : Fin 16384) :
    k0_pay4 x0 (ix2 r (0 : Fin 1)) = x0 (ix2 r (2 : Fin 4)) := by
  unfold k0_pay4
  exact extractStridedSlice_apply ![0, 2] x0 _ (ix2 r (0 : Fin 1)) (ix2 r (2 : Fin 4)) (fun a => match a with
    | ⟨0, _⟩ => by show r.val = 0 + r.val; omega
    | ⟨1, _⟩ => by show 2 = 2 + 0; rfl)

theorem col3 {F : FTy → Type} [FloatOps F] (x0 : Vec F S16384x4 .f32) (r : Fin 16384) :
    k0_pay5 x0 (ix2 r (0 : Fin 1)) = x0 (ix2 r (3 : Fin 4)) := by
  unfold k0_pay5
  exact extractStridedSlice_apply ![0, 3] x0 _ (ix2 r (0 : Fin 1)) (ix2 r (3 : Fin 4)) (fun a => match a with
    | ⟨0, _⟩ => by show r.val = 0 + r.val; omega
    | ⟨1, _⟩ => by show 3 = 3 + 0; rfl)

/-! ## The masks and the hinge terms of row `r` -/

variable (x0 : Vec Ideal S16384x4 .f32) (x1 : Vec Ideal S16384x1 .f32) (r : Fin 16384)

theorem mask45 : k0_pay6 x0 (ix2 r (0 : Fin 1)) = both45 (x0 (ix2 r (1 : Fin 4))) (x0 (ix2 r (2 : Fin 4))) := by
  show IntOp.andi (FloatOps.cmpf .ogt (k0_pay3 x0 (ix2 r (0 : Fin 1))) _) (FloatOps.cmpf .ogt (k0_pay4 x0 (ix2 r (0 : Fin 1))) _) = _
  rw [col1, col2]; rfl

theorem mask56 : k0_pay7 x0 (ix2 r (0 : Fin 1)) = both56 (x0 (ix2 r (2 : Fin 4))) (x0 (ix2 r (3 : Fin 4))) := by
  show IntOp.andi (FloatOps.cmpf .ogt (k0_pay4 x0 (ix2 r (0 : Fin 1))) _) (FloatOps.cmpf .ogt (k0_pay5 x0 (ix2 r (0 : Fin 1))) _) = _
  rw [col2, col3]; rfl

theorem mask456 : k0_pay8 x0 (ix2 r (0 : Fin 1))
    = all456 (x0 (ix2 r (1 : Fin 4))) (x0 (ix2 r (2 : Fin 4))) (x0 (ix2 r (3 : Fin 4))) := by
  show IntOp.andi (k0_pay6 x0 (ix2 r (0 : Fin 1))) (FloatOps.cmpf .ogt (k0_pay5 x0 (ix2 r (0 : Fin 1))) _) = _
  rw [mask45, col3]; rfl

theorem term45 : k0_pay9 x0 x1 (ix2 r (0 : Fin 1))
    = hinge45 (x0 (ix2 r (1 : Fin 4))) (x0 (ix2 r (2 : Fin 4))) (x1 (ix2 r (0 : Fin 1))) := by
  show FloatOps.maximumf (FloatOps.subf _ (FloatOps.subf (FloatOps.mulf (k0_pay4 x0 (ix2 r (0 : Fin 1))) _)
    (FloatOps.mulf (k0_pay3 x0 (ix2 r (0 : Fin 1))) _))) _ = _
  rw [col1, col2]; rfl

theorem term56 : k0_pay10 x0 x1 (ix2 r (0 : Fin 1))
    = hinge56 (x0 (ix2 r (2 : Fin 4))) (x0 (ix2 r (3 : Fin 4))) (x1 (ix2 r (0 : Fin 1))) := by
  show FloatOps.maximumf (FloatOps.subf _ (FloatOps.subf (FloatOps.mulf (k0_pay5 x0 (ix2 r (0 : Fin 1))) _)
    (FloatOps.mulf (k0_pay4 x0 (ix2 r (0 : Fin 1))) _))) _ = _
  rw [col2, col3]; rfl

/-- The order term before it is cut at zero (the cut is taken where the term is masked). -/
theorem termOrd : max (k0_pay11 x0 (ix2 r (0 : Fin 1))) zer
    = hingeOrd (x0 (ix2 r (1 : Fin 4))) (x0 (ix2 r (2 : Fin 4))) (x0 (ix2 r (3 : Fin 4))) := by
  show max (FloatOps.addf (FloatOps.subf
      (FloatOps.absf (FloatOps.subf (k0_pay4 x0 (ix2 r (0 : Fin 1))) (k0_pay3 x0 (ix2 r (0 : Fin 1)))))
      (FloatOps.absf (FloatOps.subf (k0_pay5 x0 (ix2 r (0 : Fin 1))) (k0_pay4 x0 (ix2 r (0 : Fin 1)))))) _) zer = _
  rw [col1, col2, col3]; rfl

/-! ## A sum along the block's long axis, kept as a 1 × 1 value -/

/-- The sum of a 16384 × 1 block along its long axis, at the one index of the result, is the sum of its rows. -/
theorem colsum (v : FVec Ideal S16384x1 .f32) (h : S16384x1.Reduces [0] S1) (hφ : FKind.Formats .f32)
    (hacc : (0x00000000#32 : BitVec 32) = FKind.add.neutral .f32 hφ) (j : S1.Idx) :
    multiReduction .add [0] S1 v 0x00000000#32 h hφ hacc j = ∑ r : Fin 16384, v (ix2 r (0 : Fin 1)) := by
  refine (Ideal.multiReduction_add_single v _ h hφ hacc j).trans ?_
  show ∑ k : Fin 16384, v (h.lift j k) = _
  refine Finset.sum_congr rfl fun k _ => congrArg v ?_
  funext a
  apply Fin.ext
  match a with
  | ⟨0, _⟩ => rfl
  | ⟨1, _⟩ => show (j 0).val = 0; have h1 : (j 0).val < 1 := (j 0).isLt; omega

/-- The same after the result is given its leading unit axis back. -/
theorem colsum11 (v : FVec Ideal S16384x1 .f32) (h : S16384x1.Reduces [0] S1) (hφ : FKind.Formats .f32)
    (hacc : (0x00000000#32 : BitVec 32) = 0x00000000#32) (hc : S1.ShapeCasts S1x1) (y : S1x1.Idx) :
    shapeCast S1x1 (multiReduction .add [0] S1 v 0x00000000#32 h hφ hacc) hc y = ∑ r : Fin 16384, v (ix2 r (0 : Fin 1)) :=
  (shapeCast_addUnit_apply ![1] _ hc y).trans (colsum v h hφ hacc _)

/-! ## The two accumulator updates -/

/-- The total's update over any masks and terms: previous contents + the three masked row sums. -/
theorem pay12_apply (v12 v17 v20 : IVec S16384x1 1) (v27 v34 v41 : FVec Ideal S16384x1 .f32) (xs : Vec Ideal S1x1 .f32)
    (y : S1x1.Idx) :
    k0_pay12 v12 v17 v20 v27 v34 v41 xs y
      = xs y + ((∑ r : Fin 16384, keep (v12 (ix2 r (0 : Fin 1))) (v27 (ix2 r (0 : Fin 1)))
            + ∑ r : Fin 16384, keep (v17 (ix2 r (0 : Fin 1))) (v34 (ix2 r (0 : Fin 1))))
          + ∑ r : Fin 16384, keep (v20 (ix2 r (0 : Fin 1))) (max (v41 (ix2 r (0 : Fin 1))) zer)) := by
  unfold k0_pay12
  dsimp only
  rw [shapeCast_self]
  show xs y + ((shapeCast S1x1 _ _ y + shapeCast S1x1 _ _ y) + shapeCast S1x1 _ _ y) = _
  rw [colsum11, colsum11, colsum11]
  rfl

/-- The count's update over any masks: previous contents + the three row sums of the mask bits. -/
theorem pay13_apply (v12 v17 v20 : IVec S16384x1 1) (xs : Vec Ideal S1x1 .f32) (y : S1x1.Idx) :
    k0_pay13 (F := Ideal) v12 v17 v20 xs y
      = xs y + ((∑ r : Fin 16384, unit (v12 (ix2 r (0 : Fin 1))) + ∑ r : Fin 16384, unit (v17 (ix2 r (0 : Fin 1))))
          + ∑ r : Fin 16384, unit (v20 (ix2 r (0 : Fin 1)))) := by
  unfold k0_pay13
  dsimp only
  rw [shapeCast_self]
  show xs y + ((shapeCast S1x1 _ _ y + shapeCast S1x1 _ _ y) + shapeCast S1x1 _ _ y) = _
  rw [colsum11, colsum11, colsum11]
  rfl

/-- The total of the masked hinge terms over a block's rows; the count of its set masks. -/
def blockTot (x0 : Vec Ideal S16384x4 .f32) (x1 : Vec Ideal S16384x1 .f32) : EReal :=
  tot (fun r : Fin 16384 => x0 (ix2 r (1 : Fin 4))) (fun r => x0 (ix2 r (2 : Fin 4))) (fun r => x0 (ix2 r (3 : Fin 4)))
    (fun r => x1 (ix2 r (0 : Fin 1)))
def blockCnt (x0 : Vec Ideal S16384x4 .f32) : EReal :=
  cnt (fun r : Fin 16384 => x0 (ix2 r (1 : Fin 4))) (fun r => x0 (ix2 r (2 : Fin 4))) (fun r => x0 (ix2 r (3 : Fin 4)))

theorem total_step (xs : Vec Ideal S1x1 .f32) (y : S1x1.Idx) :
    k0_pay12 (k0_pay6 x0) (k0_pay7 x0) (k0_pay8 x0) (k0_pay9 x0 x1) (k0_pay10 x0 x1) (k0_pay11 x0) xs y
      = xs y + blockTot x0 x1 := by
  rw [pay12_apply]
  simp only [mask45, mask56, mask456, term45, term56, termOrd]
  rfl

theorem count_step (xs : Vec Ideal S1x1 .f32) (y : S1x1.Idx) :
    k0_pay13 (k0_pay6 x0) (k0_pay7 x0) (k0_pay8 x0) xs y = xs y + blockCnt x0 := by
  rw [pay13_apply]
  simp only [mask45, mask56, mask456]
  rfl

/-- The two reset values are the zero word. -/
theorem reset_total (y : S1x1.Idx) : k0_pay1 (F := Ideal) y = zer := by
  unfold k0_pay1; rw [shapeCast_self]; rfl
theorem reset_count (y : S1x1.Idx) : k0_pay2 (F := Ideal) y = zer := by
  unfold k0_pay2; rw [shapeCast_self]; rfl

end Cert.KernelIdeal.Payload

end
-- ==== Proof.KernelAcc.lean ====
/-
  The two accumulators the kernel carries across its 512 grid points.

  After grid point n the carried total is the zero word plus the block totals of points 0 … n, and the
  carried count likewise: one case equation per kind of point (first, middle, last), then induction on
  the point.  At the last point the body also copies both accumulators into the two outputs.
-/
import proofs.«100701_j78993038508697_2_alg».proof.Proof.Gen.KernelIdeal.Frame
import proofs.«100701_j78993038508697_2_alg».proof.Proof.KernelPieces
import proofs.«100701_j78993038508697_2_alg».proof.Proof.KernelPayload
import proofs.«100701_j78993038508697_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen Cert.TemporalLoss Cert.KernelIdeal.Payload Cert.KernelIdeal.Pieces

variable (m : (ℓ : Loc nD τ sig) → Buf (Elt Ideal) ℓ) (ρ : Dev nD → PrngReg)

/-- The score block and the time block of grid point `t`, as the region finds them. -/
def X0 (c : Dev nD) (t : Fin cfg0.N) : Vec Ideal S16384x4 .f32 := iblk m c 0 t
def X1 (c : Dev nD) (t : Fin cfg0.N) : Vec Ideal S16384x1 .f32 := iblk m c 1 t

/-- The carried total and the carried count after point `n`. -/
abbrev carT (c : Dev nD) (n : ℕ) (h : n < cfg0.N) : Vec Ideal S1x1 .f32 := (outsAt0 m c n h).2.2.1
abbrev carC (c : Dev nD) (n : ℕ) (h : n < cfg0.N) : Vec Ideal S1x1 .f32 := (outsAt0 m c n h).2.2.2

/-! ## One point -/

theorem point_first (c : Dev nD) (t : Fin cfg0.N) (h0 : t.val % 512 = 0) (h1 : ¬t.val % 512 = 511) :
    carT m c t.val t.isLt = (fun _ => zer + blockTot (X0 m c t) (X1 m c t))
    ∧ carC m c t.val t.isLt = (fun _ => zer + blockCnt (X0 m c t)) := by
  unfold carT carC
  rw [outsAt0_A m c t h0 h1]
  constructor
  · refine (first_total c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).trans ?_
    funext y
    refine (total_step (X0 m c t) (X1 m c t) _ y).trans ?_
    rw [reset_total]
  · refine (first_count c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).trans ?_
    funext y
    refine (count_step (X0 m c t) _ y).trans ?_
    rw [reset_count]

theorem point_middle (c : Dev nD) (t : Fin cfg0.N) (h0 : ¬t.val % 512 = 0) (h1 : ¬t.val % 512 = 511) :
    carT m c t.val t.isLt = (fun y => (outsAt0 m c (t.val - 1) (Nat.lt_of_le_of_lt (Nat.sub_le _ _) t.isLt)).2.2.1 y + blockTot (X0 m c t) (X1 m c t))
    ∧ carC m c t.val t.isLt = (fun y => (outsAt0 m c (t.val - 1) (Nat.lt_of_le_of_lt (Nat.sub_le _ _) t.isLt)).2.2.2 y + blockCnt (X0 m c t)) := by
  unfold carT carC
  rw [outsAt0_B m c t h0 h1]
  constructor
  · refine (middle_total c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    exact total_step (X0 m c t) (X1 m c t) _ y
  · refine (middle_count c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    exact count_step (X0 m c t) _ y

theorem point_last (c : Dev nD) (t : Fin cfg0.N) (h0 : ¬t.val % 512 = 0) (h1 : t.val % 512 = 511) :
    (carT m c t.val t.isLt = (fun y => (outsAt0 m c (t.val - 1) (Nat.lt_of_le_of_lt (Nat.sub_le _ _) t.isLt)).2.2.1 y + blockTot (X0 m c t) (X1 m c t))
    ∧ carC m c t.val t.isLt = (fun y => (outsAt0 m c (t.val - 1) (Nat.lt_of_le_of_lt (Nat.sub_le _ _) t.isLt)).2.2.2 y + blockCnt (X0 m c t)))
    ∧ (outsAt0 m c t.val t.isLt).1 = carT m c t.val t.isLt ∧ (outsAt0 m c t.val t.isLt).2.1 = carC m c t.val t.isLt := by
  unfold carT carC
  rw [outsAt0_C m c t h0 h1]
  refine ⟨⟨?_, ?_⟩, ?_, ?_⟩
  · refine (last_total c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    exact total_step (X0 m c t) (X1 m c t) _ y
  · refine (last_count c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    exact count_step (X0 m c t) _ y
  · exact (last_out_total c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (last_total c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm
  · exact (last_out_count c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (last_count c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm

/-! ## All points: the running sums -/

/-- The block total and the block count of point number `n` (zero past the grid). -/
def BT (c : Dev nD) (n : ℕ) : EReal := if h : n < cfg0.N then blockTot (X0 m c ⟨n, h⟩) (X1 m c ⟨n, h⟩) else 0
def BC (c : Dev nD) (n : ℕ) : EReal := if h : n < cfg0.N then blockCnt (X0 m c ⟨n, h⟩) else 0

theorem carried (c : Dev nD) : ∀ (n : ℕ) (h : n < cfg0.N),
    carT m c n h = (fun _ => acc (BT m c) n) ∧ carC m c n h = (fun _ => acc (BC m c) n)
  | 0, h => by
    obtain ⟨e0, e1⟩ := point_first m c ⟨0, h⟩ (Nat.zero_mod _) (by show ¬0 % 512 = 511; omega)
    refine ⟨e0.trans ?_, e1.trans ?_⟩
    · funext _; show _ = zer + BT m c 0; unfold BT; rw [dif_pos h]
    · funext _; show _ = zer + BC m c 0; unfold BC; rw [dif_pos h]
  | n + 1, h => by
    have hN : cfg0.N = 512 := N_0
    have h0 : ¬(⟨n + 1, h⟩ : Fin cfg0.N).val % 512 = 0 := by dsimp only; omega
    obtain ⟨ih0, ih1⟩ := carried c n (Nat.lt_of_succ_lt h)
    have key : carT m c (n + 1) h = (fun y => carT m c n (Nat.lt_of_succ_lt h) y + blockTot (X0 m c ⟨n + 1, h⟩) (X1 m c ⟨n + 1, h⟩))
        ∧ carC m c (n + 1) h = (fun y => carC m c n (Nat.lt_of_succ_lt h) y + blockCnt (X0 m c ⟨n + 1, h⟩)) := by
      by_cases h1 : (⟨n + 1, h⟩ : Fin cfg0.N).val % 512 = 511
      · exact (point_last m c ⟨n + 1, h⟩ h0 h1).1
      · exact point_middle m c ⟨n + 1, h⟩ h0 h1
    obtain ⟨k0, k1⟩ := key
    refine ⟨k0.trans ?_, k1.trans ?_⟩
    · funext y; rw [ih0]; show _ = acc (BT m c) n + BT m c (n + 1); unfold BT; rw [dif_pos h]
    · funext y; rw [ih1]; show _ = acc (BC m c) n + BC m c (n + 1); unfold BC; rw [dif_pos h]

end Cert.KernelIdeal.LossValue

end
-- ==== Proof.KernelValue.lean ====
/-
  The kernel's result as a function of the argument arrays.

  Block b of either input is rows 16384·b … 16384·b + 16383 of its array, so the sums of the block totals
  over the 512 grid points are the totals over all 8388608 rows.  Only the last grid point writes the two
  1 × 1 outputs back, and its block is the whole array, so the two result arrays end holding the total of
  the masked hinge terms and the count of set masks; the host operations after the region turn them into
  the loss.
-/
import proofs.«100701_j78993038508697_2_alg».proof.Proof.KernelAcc
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen Cert.TemporalLoss Cert.KernelIdeal.Payload Cert.KernelIdeal.Pieces

variable (m : (ℓ : Loc nD τ sig) → Buf (Elt Ideal) ℓ) (ρ : Dev nD → PrngReg)

/-! ## A block is a range of rows of the arrays -/

/-- Grid point `t` as a block number. -/
def blkNo (t : Fin cfg0.N) : Fin 512 := ⟨t.val, lt_of_lt_of_eq t.isLt N_0⟩

/-- Both input windows step one block of rows per grid point and do not move along the columns. -/
theorem idx_scores : ∀ t : Fin cfg0.N, win0_0.index t 0 = t.val ∧ win0_0.index t 1 = 0 :=
  (by decide +kernel : ∀ t : Fin grid0.N, win0_0.index t 0 = t.val ∧ win0_0.index t 1 = 0)
theorem idx_times : ∀ t : Fin cfg0.N, win0_1.index t 0 = t.val ∧ win0_1.index t 1 = 0 :=
  (by decide +kernel : ∀ t : Fin grid0.N, win0_1.index t 0 = t.val ∧ win0_1.index t 1 = 0)

/-- Row `r`, column `k` of the score block at point `t` is row 16384·t + r, column `k` of the score array. -/
theorem X0_apply (c : Dev nD) (t : Fin cfg0.N) (r : Fin 16384) (k : Fin 4) :
    X0 m c t (ix2 r k) = V m c main_arg0 (ix2 (row (blkNo t) r) k) := by
  obtain ⟨i0, i1⟩ := idx_scores t
  unfold X0 iblk
  rw [View.read_apply]
  show V m c main_arg0 _ = V m c main_arg0 _
  refine congrArg (V m c main_arg0) ?_
  funext a
  apply Fin.ext
  match a with
  | ⟨0, _⟩ => show win0_0.index t 0 * 16384 + 1 * r.val = 16384 * t.val + r.val; rw [i0]; omega
  | ⟨1, _⟩ => show win0_0.index t 1 * 4 + 1 * k.val = k.val; rw [i1]; omega

/-- Row `r` of the time block at point `t` is row 16384·t + r of the time array. -/
theorem X1_apply (c : Dev nD) (t : Fin cfg0.N) (r : Fin 16384) (k : Fin 1) :
    X1 m c t (ix2 r k) = V m c main_arg1 (ix2 (row (blkNo t) r) k) := by
  obtain ⟨i0, i1⟩ := idx_times t
  unfold X1 iblk
  rw [View.read_apply]
  show V m c main_arg1 _ = V m c main_arg1 _
  refine congrArg (V m c main_arg1) ?_
  funext a
  apply Fin.ext
  match a with
  | ⟨0, _⟩ => show win0_1.index t 0 * 16384 + 1 * r.val = 16384 * t.val + r.val; rw [i0]; omega
  | ⟨1, _⟩ => show win0_1.index t 1 * 1 + 1 * k.val = k.val; rw [i1]; omega

/-- The two totals over all 8388608 rows of the argument arrays (as the region finds them). -/
def TOTAL (c : Dev nD) : EReal :=
  tot (fun i : Fin 8388608 => V m c main_arg0 (ix2 i (1 : Fin 4))) (fun i => V m c main_arg0 (ix2 i (2 : Fin 4)))
    (fun i => V m c main_arg0 (ix2 i (3 : Fin 4))) (fun i => V m c main_arg1 (ix2 i (0 : Fin 1)))
def COUNT (c : Dev nD) : EReal :=
  cnt (fun i : Fin 8388608 => V m c main_arg0 (ix2 i (1 : Fin 4))) (fun i => V m c main_arg0 (ix2 i (2 : Fin 4)))
    (fun i => V m c main_arg0 (ix2 i (3 : Fin 4)))

/-- The same two totals over the launch memory itself: the region finds the argument arrays as launched. -/
theorem TOTAL_eq (c : Dev nD) : TOTAL m c
    = tot (fun i : Fin 8388608 => m ((c.tc : Thread nD τ).loc main_arg0) (ix2 i (1 : Fin 4)))
        (fun i => m ((c.tc : Thread nD τ).loc main_arg0) (ix2 i (2 : Fin 4)))
        (fun i => m ((c.tc : Thread nD τ).loc main_arg0) (ix2 i (3 : Fin 4)))
        (fun i => m ((c.tc : Thread nD τ).loc main_arg1) (ix2 i (0 : Fin 1))) := by
  unfold TOTAL
  rw [V_main_arg0, V_main_arg1]

theorem COUNT_eq (c : Dev nD) : COUNT m c
    = cnt (fun i : Fin 8388608 => m ((c.tc : Thread nD τ).loc main_arg0) (ix2 i (1 : Fin 4)))
        (fun i => m ((c.tc : Thread nD τ).loc main_arg0) (ix2 i (2 : Fin 4)))
        (fun i => m ((c.tc : Thread nD τ).loc main_arg0) (ix2 i (3 : Fin 4))) := by
  unfold COUNT
  rw [V_main_arg0]

theorem sum_BT (c : Dev nD) : ∑ b : Fin 512, BT m c b.val = TOTAL m c := by
  unfold TOTAL
  rw [tot_blocks]
  refine Finset.sum_congr rfl fun b _ => ?_
  have hb : b.val < cfg0.N := lt_of_lt_of_eq b.isLt N_0.symm
  unfold BT
  rw [dif_pos hb]
  unfold blockTot
  simp only [X0_apply, X1_apply]
  rfl

theorem sum_BC (c : Dev nD) : ∑ b : Fin 512, BC m c b.val = COUNT m c := by
  unfold COUNT
  rw [cnt_blocks]
  refine Finset.sum_congr rfl fun b _ => ?_
  have hb : b.val < cfg0.N := lt_of_lt_of_eq b.isLt N_0.symm
  unfold BC
  rw [dif_pos hb]
  unfold blockCnt
  simp only [X0_apply]
  rfl

/-! ## The two result arrays -/

theorem last_lt : 511 < cfg0.N := by rw [show cfg0.N = 512 from N_0]; decide
/-- The last grid point: the only one whose outputs are written back. -/
abbrev tLast : Fin cfg0.N := ⟨511, last_lt⟩

/-- At the last point (any point numbered 511 modulo 512: there is one) the two outputs hold the two totals. -/
theorem outs_last (c : Dev nD) (t : Fin cfg0.N) (h1 : t.val % 512 = 511) :
    (outsAt0 m c t.val t.isLt).1 = (fun _ => TOTAL m c) ∧ (outsAt0 m c t.val t.isLt).2.1 = (fun _ => COUNT m c) := by
  have hN : cfg0.N = 512 := N_0
  have h511 : t.val = 511 := by have := t.isLt; omega
  obtain ⟨_, e2, e3⟩ := point_last m c t (by omega) h1
  obtain ⟨c0, c1⟩ := carried m c t.val t.isLt
  refine ⟨e2.trans (c0.trans ?_), e3.trans (c1.trans ?_)⟩
  · funext _; rw [h511, acc_last, sum_BT]
  · funext _; rw [h511, acc_last, sum_BC]

/-- The total and the count as contents of the two 1 × 1 result arrays. -/
def totArr (c : Dev nD) : Buf (Elt Ideal) ((c.tc : Thread nD τ).loc main_call0_v0_0) := fun _ => TOTAL m c
def cntArr (c : Dev nD) : Buf (Elt Ideal) ((c.tc : Thread nD τ).loc main_call0_v0_1) := fun _ => COUNT m c

/-- A write-back of a 1 × 1 staging buffer holding one value `v` writes the block of the constant array `v`
    (stated for any value, so that nothing about the value is ever opened). -/
theorem flushed_const_total (c : Dev nD) (t : Fin cfg0.N) (v : EReal) (h : (dats m 0 c).after 2 t = fun _ => v) :
    (dats m 0 c).flushed 2 t
      = ((cfg0.win 2).blk t).view.read (Elt Ideal) ((fun _ => v) : Buf (Elt Ideal) ((c.tc : Thread nD τ).loc main_call0_v0_0)) := by
  show (cfg0.win 2).cut (grid0.coords t) ((dats m 0 c).after 2 t) = _
  rw [h]
  funext y
  rw [View.read_apply]
  rfl

theorem flushed_const_count (c : Dev nD) (t : Fin cfg0.N) (v : EReal) (h : (dats m 0 c).after 3 t = fun _ => v) :
    (dats m 0 c).flushed 3 t
      = ((cfg0.win 3).blk t).view.read (Elt Ideal) ((fun _ => v) : Buf (Elt Ideal) ((c.tc : Thread nD τ).loc main_call0_v0_1)) := by
  show (cfg0.win 3).cut (grid0.coords t) ((dats m 0 c).after 3 t) = _
  rw [h]
  funext y
  rw [View.read_apply]
  rfl

theorem flushed_total (c : Dev nD) (t : Fin cfg0.N) (hf : (cfg0.win 2).flush t = true) :
    (dats m 0 c).flushed 2 t = ((cfg0.win 2).blk t).view.read (Elt Ideal) (totArr m c) := by
  have h1 : t.val % 512 = 511 := (flush0_2 t).mp hf
  unfold totArr
  exact flushed_const_total m c t (TOTAL m c) ((after0_2 m c t).trans (outs_last m c t h1).1)

theorem flushed_count (c : Dev nD) (t : Fin cfg0.N) (hf : (cfg0.win 3).flush t = true) :
    (dats m 0 c).flushed 3 t = ((cfg0.win 3).blk t).view.read (Elt Ideal) (cntArr m c) := by
  have h1 : t.val % 512 = 511 := (flush0_3 t).mp hf
  unfold cntArr
  exact flushed_const_count m c t (COUNT m c) ((after0_3 m c t).trans (outs_last m c t h1).2)

/-- The last point's block is the whole 1 × 1 array, so the array ends holding the total; the count likewise. -/
theorem final_total (c : Dev nD) : (dats m 0 c).arrAt 2 cfg0.N = totArr m c :=
  (dats m 0 c).arrAt_eq_of_cover 2 (totArr m c) (flushed_total m c) fun i =>
    ⟨tLast, (flush0_2 tLast).mpr rfl, by
      show i ∈ ((View.whole main_call0_v0_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

theorem final_count (c : Dev nD) : (dats m 0 c).arrAt 3 cfg0.N = cntArr m c :=
  (dats m 0 c).arrAt_eq_of_cover 3 (cntArr m c) (flushed_count m c) fun i =>
    ⟨tLast, (flush0_3 tLast).mpr rfl, by
      show i ∈ ((View.whole main_call0_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-! ## The host operations after the region -/

/-- What the host computes from the two 1 × 1 result arrays: both read as scalars, then
    weight · (total / max(count, 1) where count > 0, else total). -/
def tailOf (A2 A3 : (⟨S1x1, .f32⟩ : BufTy).Contents (Elt Ideal)) : (⟨S_, .f32⟩ : BufTy).Contents (Elt Ideal) :=
  mulf (constant (F := Ideal) S_ .f32 0x3DCCCCCD#32)
    (select (cmpf .ogt (shapeCast S_ A3 shapeCasts_S1x1_S_) (constant (F := Ideal) S_ .f32 0x00000000#32))
      (Host.divf (F := Ideal) (shapeCast S_ A2 shapeCasts_S1x1_S_)
        (maximumf (shapeCast S_ A3 shapeCasts_S1x1_S_) (constant (F := Ideal) S_ .f32 0x3F800000#32)))
      (shapeCast S_ A2 shapeCasts_S1x1_S_))

theorem tailOf_const (T C : EReal) : tailOf (fun _ => T) (fun _ => C) = fun _ => loss T C := by
  funext i; rfl

theorem tail_eq (c : Dev nD) :
    Pipeline.afterTail₀ cfgs (dats m) 0 (V0 m) [hostOps1] c main_v0 = fun _ => loss (TOTAL m c) (COUNT m c) := by
  have e2 : Pipeline.withArrays spec0 c (V0 m c) (fun w => (dats m 0 c).arrAt w cfg0.N) (Proc.devRef .tc main_call0_v0_0)
      = totArr m c :=
    (Pipeline.withArrays_arr spec0 launch0.win.arr_inj c (V0 m c) (fun w => (dats m 0 c).arrAt w cfg0.N) 2).trans (final_total m c)
  have e3 : Pipeline.withArrays spec0 c (V0 m c) (fun w => (dats m 0 c).arrAt w cfg0.N) (Proc.devRef .tc main_call0_v0_1)
      = cntArr m c :=
    (Pipeline.withArrays_arr spec0 launch0.win.arr_inj c (V0 m c) (fun w => (dats m 0 c).arrAt w cfg0.N) 3).trans (final_count m c)
  unfold Pipeline.afterTail₀
  show StableHlo.after hostOps1 _ (Proc.devRef .tc main_v0) = _
  after_results
  refine (show _ = tailOf
    (Pipeline.withArrays spec0 c (V0 m c) (fun w => (dats m 0 c).arrAt w cfg0.N) (Proc.devRef .tc main_call0_v0_0))
    (Pipeline.withArrays spec0 c (V0 m c) (fun w => (dats m 0 c).arrAt w cfg0.N) (Proc.devRef .tc main_call0_v0_1)) from rfl).trans ?_
  rw [e2, e3]
  unfold totArr cntArr
  exact tailOf_const (TOTAL m c) (COUNT m c)

/-! ## The run, read -/

/-- Every weakly fair execution of the kernel's program terminates with the result at the loss of the argument
    arrays, and the arguments unchanged. -/
theorem run : θ_run defs (onTc (τ := τ) (main (F := Ideal))) ⟨m, fun _ => 0, ρ⟩ fun r => ∀ c : Dev nD,
      r.2.mem ((c.tc : Thread nD τ).loc main_v0) = (fun _ => loss (TOTAL m c) (COUNT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.LossValue

end
-- ==== Proof.LibCount32.lean ====
/-
  Counting set bits with 32-bit words: a general lemma, generic in the (finite) index type.

  A host program that counts a boolean mask (a sum of a mask, which is summed as 32-bit integers) widens
  each mask bit to a 32-bit word, adds the words with wrap-around from the zero word, possibly adds a few
  such counts (again with wrap-around), and converts the resulting word, read as a SIGNED integer, to a
  float.  On the extended reals that float is the plain number of set bits — the sum over the indices of
  each bit read as 0 or 1 — as soon as the total number of summed bits is below 2^31: then no addition
  wraps and the sign bit stays clear.

  Stated here:
    `bit01 b`            a mask bit widened to 32 bits and read as a signed integer, as an extended real;
    `bit01_eq`           it is the bit's value as a natural number;
    `coe_sum`            the real number of a finite sum of reals is the sum of the numbers, on the extended reals;
    `fold_addi`          a wrap-around sum of words from the zero word is the word of the sum of their values;
    `ones`, `ones_le`    the number of set bits of a family of masks, at most the size of the family;
    `sum_bit01`          the sum of the bits of a family read as numbers is that number;
    `fold_widened`       the wrap-around count of one family of masks is the word of that number;
    `count_word`         THREE wrap-around counts over one index type, added with wrap-around and read as a signed
                         integer, are the three plain counts added, when 3 · (size of the index type) < 2^31
                         (`count_word1`, `count_word2`: the same for one count and for two).
  Imports only the library's operations on the extended reals and Mathlib.
-/
import Idealize.ShloMosaic.PureOps.Ideal
import Idealize.ShloMosaic.PureOps.Ideal.Laws

noncomputable section

namespace Cert.LibCount32

open Idealize.ShloMosaic

/-- A mask bit as a number: widened to 32 bits, read as a signed integer, exactly. -/
def bit01 (b : BitVec 1) : EReal := (((b.setWidth 32).toInt : ℝ) : EReal)

/-- A mask bit read as a number is its value as a natural number. -/
theorem bit01_eq (b : BitVec 1) : bit01 b = (((b.toNat : ℕ) : ℝ) : EReal) := by
  rcases BitVec.eq_zero_or_eq_one b with rfl | rfl
  · have h : ((0#1).setWidth 32).toInt = 0 := by decide
    unfold bit01; rw [h]; simp
  · have h : ((1#1).setWidth 32).toInt = 1 := by decide
    unfold bit01; rw [h]; simp

/-- The real number of a finite sum of reals, on the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

section Words
variable {ι : Type} [Fintype ι]

/-- A wrap-around sum of words from the zero word is the word of the sum of their values. -/
theorem fold_addi (S : Finset ι) (x : ι → BitVec 32) :
    S.fold IntOp.addi 0#32 x = BitVec.ofNat 32 (∑ i ∈ S, (x i).toNat) := by
  induction S using Finset.cons_induction with
  | empty => simp
  | cons a S ha ih =>
    rw [Finset.fold_cons, Finset.sum_cons, ih]
    show x a + BitVec.ofNat 32 _ = _
    apply BitVec.eq_of_toNat_eq
    simp [BitVec.toNat_add, BitVec.toNat_ofNat, Nat.add_mod]

/-- The number of set bits of a family of masks. -/
def ones (b : ι → BitVec 1) : ℕ := ∑ i, (b i).toNat

theorem ones_le (b : ι → BitVec 1) : ones b ≤ Fintype.card ι := by
  unfold ones
  calc ∑ i, (b i).toNat ≤ ∑ _i : ι, 1 := Finset.sum_le_sum fun i _ => by have := (b i).isLt; omega
    _ = Fintype.card ι := by simp

/-- The bits of a family, read as numbers and summed, are the number of set bits. -/
theorem sum_bit01 (b : ι → BitVec 1) : ∑ i, bit01 (b i) = (((ones b : ℕ) : ℝ) : EReal) := by
  unfold ones
  rw [Nat.cast_sum, coe_sum]
  exact Finset.sum_congr rfl fun i _ => bit01_eq (b i)

/-- The wrap-around count of a family of masks is the word of its number of set bits. -/
theorem fold_widened (b : ι → BitVec 1) :
    (Finset.univ.fold IntOp.addi 0#32 fun i => (b i).setWidth 32) = BitVec.ofNat 32 (ones b) := by
  rw [fold_addi]
  unfold ones
  refine congrArg (BitVec.ofNat 32) (Finset.sum_congr rfl fun i _ => ?_)
  have := (b i).isLt
  simp [BitVec.toNat_setWidth]
  omega

/-- A word below 2^31, read as a signed integer, is its value. -/
theorem toInt_ofNat_small (n : ℕ) (h : n < 2 ^ 31) : (BitVec.ofNat 32 n).toInt = (n : ℤ) := by
  rw [BitVec.toInt_eq_toNat_of_lt (by rw [BitVec.toNat_ofNat]; omega), BitVec.toNat_ofNat]
  congr 1
  omega

/-- One wrap-around count read as a signed integer is the plain count, below 2^31 indices. -/
theorem count_word1 (b1 : ι → BitVec 1) (hι : Fintype.card ι < 2 ^ 31) :
    ((((Finset.univ.fold IntOp.addi 0#32 fun i => (b1 i).setWidth 32).toInt : ℤ) : ℝ) : EReal) = ∑ i, bit01 (b1 i) := by
  rw [fold_widened, sum_bit01]
  have h1 := ones_le b1
  rw [toInt_ofNat_small _ (by omega)]
  push_cast
  rfl

/-- Two wrap-around counts, added with wrap-around and read as a signed integer, are the two plain counts added,
    when twice the number of indices is below 2^31. -/
theorem count_word2 (b1 b2 : ι → BitVec 1) (hι : 2 * Fintype.card ι < 2 ^ 31) :
    ((((IntOp.addi (Finset.univ.fold IntOp.addi 0#32 fun i => (b1 i).setWidth 32)
          (Finset.univ.fold IntOp.addi 0#32 fun i => (b2 i).setWidth 32)).toInt : ℤ) : ℝ) : EReal)
      = ∑ i, bit01 (b1 i) + ∑ i, bit01 (b2 i) := by
  rw [fold_widened, fold_widened, sum_bit01, sum_bit01]
  have h1 := ones_le b1; have h2 := ones_le b2
  have hw : IntOp.addi (BitVec.ofNat 32 (ones b1)) (BitVec.ofNat 32 (ones b2)) = BitVec.ofNat 32 (ones b1 + ones b2) := by
    show BitVec.ofNat 32 _ + BitVec.ofNat 32 _ = _
    rw [← BitVec.ofNat_add]
  rw [hw, toInt_ofNat_small _ (by omega)]
  push_cast
  rfl

/-- Three wrap-around counts, added with wrap-around and read as a signed integer, are the three plain counts added,
    when three times the number of indices is below 2^31. -/
theorem count_word (b1 b2 b3 : ι → BitVec 1) (hι : 3 * Fintype.card ι < 2 ^ 31) :
    ((((IntOp.addi (IntOp.addi (Finset.univ.fold IntOp.addi 0#32 fun i => (b1 i).setWidth 32)
          (Finset.univ.fold IntOp.addi 0#32 fun i => (b2 i).setWidth 32))
        (Finset.univ.fold IntOp.addi 0#32 fun i => (b3 i).setWidth 32)).toInt : ℤ) : ℝ) : EReal)
      = (∑ i, bit01 (b1 i) + ∑ i, bit01 (b2 i)) + ∑ i, bit01 (b3 i) := by
  rw [fold_widened, fold_widened, fold_widened, sum_bit01, sum_bit01, sum_bit01]
  have h1 := ones_le b1; have h2 := ones_le b2; have h3 := ones_le b3
  have hw : IntOp.addi (IntOp.addi (BitVec.ofNat 32 (ones b1)) (BitVec.ofNat 32 (ones b2))) (BitVec.ofNat 32 (ones b3))
      = BitVec.ofNat 32 (ones b1 + ones b2 + ones b3) := by
    show BitVec.ofNat 32 _ + BitVec.ofNat 32 _ + BitVec.ofNat 32 _ = _
    rw [← BitVec.ofNat_add, ← BitVec.ofNat_add]
  rw [hw, toInt_ofNat_small _ (by omega)]
  push_cast
  rfl

end Words

end Cert.LibCount32

end
-- ==== Proof.RefValue.lean ====
/-
  The reference's result as the same function of the argument arrays.

  The reference slices columns 1, 2, 3 of the scores and the one column of the times into four vectors of
  8388608 rows, forms the masks and hinge terms row by row, sums each masked term over all rows (three
  sums from the zero word) and adds the sums; it counts each mask with 32-bit words, adds the three counts
  and converts the integer; then it takes the same final quotient.  Row by row its terms are the
  specification's row functions of the array entries, so its total is the specification's total; its
  integer count is the plain count because 3 · 8388608 < 2^31.
-/
import proofs.«100701_j78993038508697_2_alg».proof.Proof.RefRead
import proofs.«100701_j78993038508697_2_alg».proof.Proof.Spec
import proofs.«100701_j78993038508697_2_alg».proof.Proof.LibCount32
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.ReadP Cert.TemporalLoss

/-- The rows of a vector of 8388608 entries. -/
def rowIdx : S8388608.Idx ≃ Fin 8388608 where
  toFun j := j 0
  invFun i := ix1 i
  left_inv j := (eq_ix1 j).symm
  right_inv i := rfl

theorem sum_rows1 {M : Type} [AddCommMonoid M] (f : S8388608.Idx → M) : ∑ j, f j = ∑ i : Fin 8388608, f (ix1 i) :=
  (Equiv.sum_comp rowIdx.symm f).symm

theorem card_rows : Fintype.card S8388608.Idx = 8388608 := (Fintype.card_congr rowIdx).trans (Fintype.card_fin _)

variable (x0 : (⟨S8388608x4, .f32⟩ : BufTy).Contents (Elt Ideal)) (x1 : (⟨S8388608x1, .f32⟩ : BufTy).Contents (Elt Ideal))
variable (i : Fin 8388608)

/-! ## The four columns, row by row -/

theorem p4_at : val_main_v1 (F := Ideal) x0 (ix1 i) = x0 (ix2 i (1 : Fin 4)) := by
  rw [val_main_v1_apply, val_main_v0_apply]
  refine congrArg x0 ?_
  funext a
  apply Fin.ext
  match a with
  | ⟨0, _⟩ => show i.val / 1 = i.val; omega
  | ⟨1, _⟩ => rfl

theorem p5_at : val_main_v3 (F := Ideal) x0 (ix1 i) = x0 (ix2 i (2 : Fin 4)) := by
  rw [val_main_v3_apply, val_main_v2_apply]
  refine congrArg x0 ?_
  funext a
  apply Fin.ext
  match a with
  | ⟨0, _⟩ => show i.val / 1 = i.val; omega
  | ⟨1, _⟩ => rfl

theorem p6_at : val_main_v5 (F := Ideal) x0 (ix1 i) = x0 (ix2 i (3 : Fin 4)) := by
  rw [val_main_v5_apply, val_main_v4_apply]
  refine congrArg x0 ?_
  funext a
  apply Fin.ext
  match a with
  | ⟨0, _⟩ => show i.val / 1 = i.val; omega
  | ⟨1, _⟩ => rfl

theorem t_at : val_main_v6 (F := Ideal) x1 (ix1 i) = x1 (ix2 i (0 : Fin 1)) := by
  rw [val_main_v6_apply]
  refine congrArg x1 ?_
  funext a
  apply Fin.ext
  match a with
  | ⟨0, _⟩ => show i.val / 1 = i.val; omega
  | ⟨1, _⟩ => rfl

/-! ## The masks and the masked terms of row `i` -/

theorem m45_at : val_main_v11 (F := Ideal) x0 (ix1 i) = both45 (x0 (ix2 i (1 : Fin 4))) (x0 (ix2 i (2 : Fin 4))) := by
  rw [val_main_v11_apply, val_main_v8_apply, val_main_v10_apply, p4_at, p5_at]; rfl

theorem m56_at : val_main_v16 (F := Ideal) x0 (ix1 i) = both56 (x0 (ix2 i (2 : Fin 4))) (x0 (ix2 i (3 : Fin 4))) := by
  rw [val_main_v16_apply, val_main_v13_apply, val_main_v15_apply, p5_at, p6_at]; rfl

theorem m456_at : val_main_v19 (F := Ideal) x0 (ix1 i)
    = all456 (x0 (ix2 i (1 : Fin 4))) (x0 (ix2 i (2 : Fin 4))) (x0 (ix2 i (3 : Fin 4))) := by
  rw [val_main_v19_apply, val_main_v18_apply, m45_at, p6_at]; rfl

theorem row45 : val_main_v40 (F := Ideal) x0 x1 (ix1 i)
    = e45 (x0 (ix2 i (1 : Fin 4))) (x0 (ix2 i (2 : Fin 4))) (x1 (ix2 i (0 : Fin 1))) := by
  rw [val_main_v40_apply, val_main_v25_apply, val_main_v24_apply, val_main_v22_apply, val_main_v20_apply,
    val_main_v21_apply, m45_at, p4_at, p5_at, t_at]
  rfl

theorem row56 : val_main_v42 (F := Ideal) x0 x1 (ix1 i)
    = e56 (x0 (ix2 i (2 : Fin 4))) (x0 (ix2 i (3 : Fin 4))) (x1 (ix2 i (0 : Fin 1))) := by
  rw [val_main_v42_apply, val_main_v31_apply, val_main_v30_apply, val_main_v28_apply, val_main_v26_apply,
    val_main_v27_apply, m56_at, p5_at, p6_at, t_at]
  rfl

theorem row456 : val_main_v45 (F := Ideal) x0 (ix1 i)
    = e456 (x0 (ix2 i (1 : Fin 4))) (x0 (ix2 i (2 : Fin 4))) (x0 (ix2 i (3 : Fin 4))) := by
  rw [val_main_v45_apply, val_main_v39_apply, val_main_v38_apply, val_main_v36_apply, val_main_v33_apply,
    val_main_v35_apply, val_main_v32_apply, val_main_v34_apply, m456_at, p4_at, p5_at, p6_at]
  rfl

/-! ## The total, the count, the result -/

/-- Two host additions of scalars, on the extended reals (over any three values). -/
theorem add3 (A B C : EReal) :
    FloatOps.addf (F := Ideal) (φ := .f32) (FloatOps.addf (F := Ideal) (φ := .f32) A B) C = (A + B) + C := rfl

theorem total_eq (j : S_.Idx) : val_main_v47 (F := Ideal) x0 x1 j
    = tot (fun i : Fin 8388608 => x0 (ix2 i (1 : Fin 4))) (fun i => x0 (ix2 i (2 : Fin 4)))
        (fun i => x0 (ix2 i (3 : Fin 4))) (fun i => x1 (ix2 i (0 : Fin 1))) := by
  have z8 : val_main_cst_8 (F := Ideal) (Shape.Idx.first h_S_) = 0 := Ideal.ofBits_zero_f32
  have z10 : val_main_cst_10 (F := Ideal) (Shape.Idx.first h_S_) = 0 := Ideal.ofBits_zero_f32
  have z12 : val_main_cst_12 (F := Ideal) (Shape.Idx.first h_S_) = 0 := Ideal.ofBits_zero_f32
  rw [val_main_v47_apply, val_main_v44_apply, add3, val_main_v41_apply, val_main_v43_apply, val_main_v46_apply,
    sum_rows1, sum_rows1, sum_rows1, z8, z10, z12, zero_add, zero_add, zero_add]
  simp only [row45, row56, row456, tot]

/-- A 32-bit count of one mask over all rows: the wrap-around sum, from the zero word, of its widened bits. -/
theorem reduce_word (b : S8388608.Idx → BitVec 1) (init : S_.Idx → BitVec 32) (h0 : init (Shape.Idx.first h_S_) = 0#32)
    (j : S_.Idx) :
    Host.reduce IntOp.addi (fun i => (b i).setWidth 32) init reducesTo_S8388608_S_d0 h_S_ j
      = Finset.univ.fold IntOp.addi 0#32 fun i => (b i).setWidth 32 := by
  rw [Host.reduce_eq_fold, Finset.filter_true_of_mem (fun i _ => funext fun a => a.elim0), h0]

/-- The specification's reading of a mask bit is the counting lemma's. -/
theorem unit_eq_bit01 (b : BitVec 1) : unit b = Cert.LibCount32.bit01 b := rfl

/-- The conversion of a 32-bit word to a float, on the extended reals (over any word). -/
theorem word_to_real (w : BitVec 32) : FloatOps.sitofp (F := Ideal) .f32 w = (((w.toInt : ℤ) : ℝ) : EReal) := rfl

theorem count_eq (j : S_.Idx) :
    FloatOps.sitofp (F := Ideal) .f32 (val_main_v55 (F := Ideal) x0 j)
      = cnt (fun i : Fin 8388608 => x0 (ix2 i (1 : Fin 4))) (fun i => x0 (ix2 i (2 : Fin 4)))
          (fun i => x0 (ix2 i (3 : Fin 4))) := by
  have r49 : val_main_v49 (F := Ideal) x0 j = Finset.univ.fold IntOp.addi 0#32 fun i => (val_main_v11 (F := Ideal) x0 i).setWidth 32 :=
    reduce_word (val_main_v11 (F := Ideal) x0) _ rfl j
  have r51 : val_main_v51 (F := Ideal) x0 j = Finset.univ.fold IntOp.addi 0#32 fun i => (val_main_v16 (F := Ideal) x0 i).setWidth 32 :=
    reduce_word (val_main_v16 (F := Ideal) x0) _ rfl j
  have r54 : val_main_v54 (F := Ideal) x0 j = Finset.univ.fold IntOp.addi 0#32 fun i => (val_main_v19 (F := Ideal) x0 i).setWidth 32 :=
    reduce_word (val_main_v19 (F := Ideal) x0) _ rfl j
  have hc : 3 * Fintype.card S8388608.Idx < 2 ^ 31 := by rw [card_rows]; norm_num
  rw [word_to_real, val_main_v55_apply, val_main_v52_apply, r49, r51, r54]
  rw [Cert.LibCount32.count_word _ _ _ hc]
  rw [sum_rows1, sum_rows1, sum_rows1]
  simp only [m45_at, m56_at, m456_at]
  simp only [cnt, unit_eq_bit01]

/-- The host's last four operations on the two totals, over any two values: the loss. -/
theorem final_form (T C : EReal) (j : S_.Idx) :
    FloatOps.mulf (F := Ideal) (φ := .f32) (val_main_cst_17 (F := Ideal) j)
      (Scalar.select (FloatOps.cmpf (F := Ideal) (φ := .f32) .ogt C (val_main_cst_15 (F := Ideal) j))
        (FloatOps.hostDivf (F := Ideal) (φ := .f32) T
          (FloatOps.maximumf (F := Ideal) (φ := .f32) C (val_main_cst_16 (F := Ideal) j))) T)
      = loss T C := rfl

/-- The reference's result is the loss of the two totals over the rows of its arguments. -/
theorem result_eq : val_main_v61 (F := Ideal) x0 x1
    = fun _ => loss
        (tot (fun i : Fin 8388608 => x0 (ix2 i (1 : Fin 4))) (fun i => x0 (ix2 i (2 : Fin 4)))
          (fun i => x0 (ix2 i (3 : Fin 4))) (fun i => x1 (ix2 i (0 : Fin 1))))
        (cnt (fun i : Fin 8388608 => x0 (ix2 i (1 : Fin 4))) (fun i => x0 (ix2 i (2 : Fin 4)))
          (fun i => x0 (ix2 i (3 : Fin 4)))) := by
  funext j
  rw [val_main_v61_apply, val_main_v60_apply, val_main_v57_apply, val_main_v59_apply, val_main_v58_apply,
    val_main_v56_apply, count_eq, total_eq]
  exact final_form _ _ j

end Cert.ReferenceIdeal.RefValue

end
-- ==== Proof.lean ====
/-
  The certificate of the temporal-consistency loss kernel against its reference.

  Both programs compute, from a score array (8388608 × 4) and a time array (8388608 × 1),

      weight · (T / max(C, 1)  if C > 0,  else T),

  where T is the sum over all rows of three masked hinge terms and C the number of set masks.  The kernel
  walks the rows in 512 blocks of 16384, keeps T and C in two 1 × 1 accumulators reset at the first block,
  and copies them out at the last; its C is a float sum of zeros and ones.  The reference sums each masked
  term over all rows at once and counts the masks with 32-bit integers before converting.  On the extended
  reals the two totals agree by regrouping the sums (commutativity and associativity of + only: no
  finiteness of the inputs is used), and the two counts agree because 3 · 8388608 < 2^31, so the integer
  count neither wraps nor turns negative.  The last step (the comparison, the quotient, the weight) is the
  same operations on both sides.

  The three frames: the two kernel programs' frames are the generated ones; the reference's is its run
  with the result dropped.  The idealization rewrote nothing, so `preserves` is `True`.
-/
import proofs.«100701_j78993038508697_2_alg».proof.Defs
import proofs.«100701_j78993038508697_2_alg».proof.Proof.Gen.Kernel
import proofs.«100701_j78993038508697_2_alg».proof.Proof.Gen.Kernel.Skeleton
import proofs.«100701_j78993038508697_2_alg».proof.Proof.Gen.Kernel.Launch
import proofs.«100701_j78993038508697_2_alg».proof.Proof.Gen.Kernel.Points
import proofs.«100701_j78993038508697_2_alg».proof.Proof.Gen.Kernel.Frame
import proofs.«100701_j78993038508697_2_alg».proof.Proof.Gen.KernelIdeal
import proofs.«100701_j78993038508697_2_alg».proof.Proof.Gen.KernelIdeal.Skeleton
import proofs.«100701_j78993038508697_2_alg».proof.Proof.Gen.KernelIdeal.Launch
import proofs.«100701_j78993038508697_2_alg».proof.Proof.Gen.KernelIdeal.Points
import proofs.«100701_j78993038508697_2_alg».proof.Proof.Gen.KernelIdeal.Frame
import proofs.«100701_j78993038508697_2_alg».proof.Proof.Gen.ReferenceIdeal
import proofs.«100701_j78993038508697_2_alg».proof.Proof.Gen.Pre_finite_inputs
import proofs.«100701_j78993038508697_2_alg».proof.Proof.RefRun
import proofs.«100701_j78993038508697_2_alg».proof.Proof.RefRead
import proofs.«100701_j78993038508697_2_alg».proof.Proof.Spec
import proofs.«100701_j78993038508697_2_alg».proof.Proof.KernelValue
import proofs.«100701_j78993038508697_2_alg».proof.Proof.RefValue
import Idealize.ShloMosaic.Adequacy
import Idealize.ShloMosaic.Init

noncomputable section

namespace Cert.Proof

open Idealize.ShloMosaic Idealize.SL.Sem Cert.TemporalLoss

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the two arrays, both programs end with the loss of those arrays. -/
theorem algebraic : Cert.algebraic_KernelIdeal_ReferenceIdeal := by
  intro m ρ m' ρ' _ hagree
  refine ⟨fun c => fun _ => loss (Cert.KernelIdeal.LossValue.TOTAL m c) (Cert.KernelIdeal.LossValue.COUNT m c),
    Cert.KernelIdeal.LossValue.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v61 m' c
    = fun _ => loss (Cert.KernelIdeal.LossValue.TOTAL m c) (Cert.KernelIdeal.LossValue.COUNT m c)
  rw [Cert.ReferenceIdeal.ReadP.val_main_v61_eq, Cert.ReferenceIdeal.RefValue.result_eq, (hagree c).1, (hagree c).2,
    Cert.KernelIdeal.LossValue.TOTAL_eq, Cert.KernelIdeal.LossValue.COUNT_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
